-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x28 : Shape := ⟨2, ![1600000, 28]⟩
abbrev S500000 : Shape := ⟨1, ![500000]⟩
abbrev S500000x28 : Shape := ⟨2, ![500000, 28]⟩
abbrev S_ : Shape := ⟨0, ![]⟩

class Facts : Prop where
  bcast_S_S1600000x28 : S_.BroadcastsInDim S1600000x28 (![] : Fin 0 → Fin S1600000x28.rank)
  reducesTo_S1600000x28_S_d0_1 : S1600000x28.ReducesTo [0, 1] S_
  h_S_ : 0 < S_.numel
  bcast_S_S500000x28 : S_.BroadcastsInDim S500000x28 (![] : Fin 0 → Fin S500000x28.rank)
  reducesTo_S500000x28_S_d0_1 : S500000x28.ReducesTo [0, 1] S_

variable [Facts]

def fn {F : FTy → Type} [FloatOps F] (main_arg0 : FVec F S1600000x28 .f32) (main_arg1 : IVec S500000 32) (main_arg2 : FVec F S500000x28 .f32) : IVec S_ 1 :=
  let main_v0 : FVec F S1600000x28 .f32 := Host.absf main_arg0
  let main_cst : FVec F S_ .f32 := constant S_ .f32 0x7F800000#32
  let main_v1 : FVec F S1600000x28 .f32 := broadcastInDim S1600000x28 ![] bcast_S_S1600000x28 main_cst
  let main_v2 : IVec S1600000x28 1 := cmpf .olt main_v0 main_v1
  let main_c : IVec S_ 1 := constantI S_ 1 1#1
  let main_v3 : IVec S_ 1 := (fun x v => Host.reduce IntOp.andi x v reducesTo_S1600000x28_S_d0_1 h_S_) main_v2 main_c
  let main_v4 : FVec F S500000x28 .f32 := Host.absf main_arg2
  let main_cst_0 : FVec F S_ .f32 := constant S_ .f32 0x7F800000#32
  let main_v5 : FVec F S500000x28 .f32 := broadcastInDim S500000x28 ![] bcast_S_S500000x28 main_cst_0
  let main_v6 : IVec S500000x28 1 := cmpf .olt main_v4 main_v5
  let main_c_1 : IVec S_ 1 := constantI S_ 1 1#1
  let main_v7 : IVec S_ 1 := (fun x v => Host.reduce IntOp.andi x v reducesTo_S500000x28_S_d0_1 h_S_) main_v6 main_c_1
  let main_v8 : IVec S_ 1 := andi main_v3 main_v7
  main_v8
-- ==== Kernel.lean ====
abbrev S1600000x28 : Shape := ⟨2, ![1600000, 28]⟩
abbrev S500000 : Shape := ⟨1, ![500000]⟩
abbrev S500000x28 : Shape := ⟨2, ![500000, 28]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S4000x28 : Shape := ⟨2, ![4000, 28]⟩

abbrev nBuf : Space → Nat
  | .hbm => 61
  | .vmem => 6
  | .smem => 0
  | _ => 0

abbrev bufTy : (tb : Table) → Fin (tcTables nBuf tb) → BufTy
  | .hbm, ⟨0, _⟩ => ⟨S1600000x28, .f32⟩
  | .hbm, ⟨1, _⟩ => ⟨S500000, .i32⟩
  | .hbm, ⟨2, _⟩ => ⟨S500000x28, .f32⟩
  | .hbm, ⟨3, _⟩ => ⟨S_, .f32⟩
  | .hbm, ⟨4, _⟩ => ⟨S1600000x28, .f32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S1600000x28, .f32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S1, .i32⟩
  | .hbm, ⟨23, _⟩ => ⟨S_, .i32⟩
  | .hbm, ⟨24, _⟩ => ⟨S500000x1, .i32⟩
  | .hbm, ⟨25, _⟩ => ⟨S500000x1, .i1⟩
  | .hbm, ⟨26, _⟩ => ⟨S1x1, .i32⟩
  | .hbm, ⟨27, _⟩ => ⟨S500000x1, .i32⟩
  | .hbm, ⟨28, _⟩ => ⟨S500000x1, .i1⟩
  | .hbm, ⟨29, _⟩ => ⟨S500000x1, .i1⟩
  | .hbm, ⟨30, _⟩ => ⟨S_, .i1⟩
  | .hbm, ⟨31, _⟩ => ⟨S500000, .i1⟩
  | .hbm, ⟨32, _⟩ => ⟨S500000x28, .f32⟩
  | .hbm, ⟨33, _⟩ => ⟨S500000x28, .i1⟩
  | .hbm, ⟨34, _⟩ => ⟨S_, .f32⟩
  | .hbm, ⟨35, _⟩ => ⟨S500000x28, .f32⟩
  | .hbm, ⟨36, _⟩ => ⟨S500000x28, .f32⟩
  | .hbm, ⟨37, _⟩ => ⟨S_, .i32⟩
  | .hbm, ⟨38, _⟩ => ⟨S500000, .i32⟩
  | .hbm, ⟨39, _⟩ => ⟨S500000, .i1⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S500000, .i32⟩
  | .hbm, ⟨44, _⟩ => ⟨S500000x1, .i32⟩
  | .hbm, ⟨45, _⟩ => ⟨S1, .i32⟩
  | .hbm, ⟨46, _⟩ => ⟨S_, .i32⟩
  | .hbm, ⟨47, _⟩ => ⟨S500000x1, .i32⟩
  | .hbm, ⟨48, _⟩ => ⟨S500000x1, .i1⟩
  | .hbm, ⟨49, _⟩ => ⟨S1x1, .i32⟩
  | .hbm, ⟨50, _⟩ => ⟨S500000x1, .i32⟩
  | .hbm, ⟨51, _⟩ => ⟨S500000x1, .i1⟩
  | .hbm, ⟨52, _⟩ => ⟨S500000x1, .i1⟩
  | .hbm, ⟨53, _⟩ => ⟨S_, .i1⟩
  | .hbm, ⟨54, _⟩ => ⟨S500000, .i1⟩
  | .hbm, ⟨55, _⟩ => ⟨S500000x28, .f32⟩
  | .hbm, ⟨56, _⟩ => ⟨S500000x28, .i1⟩
  | .hbm, ⟨57, _⟩ => ⟨S_, .f32⟩
  | .hbm, ⟨58, _⟩ => ⟨S500000x28, .f32⟩
  | .hbm, ⟨59, _⟩ => ⟨S500000x28, .f32⟩
  | .hbm, ⟨60, _⟩ => ⟨S500000x28, .f32⟩
  | .local _ .vmem, ⟨0, _⟩ => ⟨S4000x28, .f32⟩
  | .local _ .vmem, ⟨1, _⟩ => ⟨S4000x28, .f32⟩
  | .local _ .vmem, ⟨2, _⟩ => ⟨S4000x28, .f32⟩
  | .local _ .vmem, ⟨3, _⟩ => ⟨S4000x28, .f32⟩
  | .local _ .vmem, ⟨4, _⟩ => ⟨S4000x28, .f32⟩
  | .local _ .vmem, ⟨5, _⟩ => ⟨S4000x28, .f32⟩
  | _, _ => ⟨S1600000x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v8 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v9 : Ref sig .tc := ⟨.hbm, 59, rfl⟩
abbrev main_v10 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x28 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x28 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1600000x28 : S_.BroadcastsInDim S1600000x28 (![] : Fin 0 → Fin S1600000x28.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x28_0 : S500000.BroadcastsInDim S500000x28 (![0] : Fin 1 → Fin S500000x28.rank)
  bcast_S_S500000x28 : S_.BroadcastsInDim S500000x28 (![] : Fin 0 → Fin S500000x28.rank)
  inb_S4000x28_S4000x28_0_0 : ∀ a, (![0, 0] : Fin 2 → Nat) a + S4000x28.size a ≤ S4000x28.size a
  h_S4000x28 : 0 < S4000x28.numel
  shapeCasts_S4000x28_S4000x28 : S4000x28.ShapeCasts S4000x28
  scatter_S1600000x28_S500000x1_S500000x28_1_0_0_1_wf : ScatterDims.WF S1600000x28 S500000x1 S500000x28 [1] [0] [0] 1
  gather_S1600000x28_S500000x1_S500000x28_1_0_n_n_0_1_128_wf : GatherDims.WF S1600000x28 S500000x1 S500000x28 [1] [0] [] [0] [] 1 ![1, 28]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x28.size a ≤ S500000x28.size a
  hwx0_0 : ∀ i : grid0.Coords, EltTy.bits .f32 = 32 ∨ (Rect.block (s := S500000x28) S4000x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x28.size a ≤ S500000x28.size a
  hwx0_1 : ∀ i : grid0.Coords, EltTy.bits .f32 = 32 ∨ (Rect.block (s := S500000x28) S4000x28.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x28.size a ≤ S500000x28.size a
  hwx0_2 : ∀ i : grid0.Coords, EltTy.bits .f32 = 32 ∨ (Rect.block (s := S500000x28) S4000x28.size (cc0_transform_2 i) (hinb0_2 i)).WholeWords (EltTy.packing .f32)

variable [Facts₀]

def scatter_S1600000x28_S500000x1_S500000x28_1_0_0_1 : ScatterDims S1600000x28 S500000x1 S500000x28 where
  updateWindowDims := [1]
  insertedWindowDims := [0]
  scatterDimsToOperandDims := [0]
  indexVectorDim := 1
  wf := scatter_S1600000x28_S500000x1_S500000x28_1_0_0_1_wf
def gather_S1600000x28_S500000x1_S500000x28_1_0_n_n_0_1_128 : GatherDims S1600000x28 S500000x1 S500000x28 where
  offsetDims := [1]
  collapsedSliceDims := [0]
  operandBatchingDims := []
  startIndicesBatchingDims := []
  startIndexMap := [0]
  indexVectorDim := 1
  sliceSizes := ![1, 28]
  wf := gather_S1600000x28_S500000x1_S500000x28_1_0_n_n_0_1_128_wf

abbrev win0_0 : Pipeline.Window sig grid0 :=
  Pipeline.Window.ofSpec (Memref.whole main_v8) S4000x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x28.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4000x28.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x28 : Shape := ⟨2, ![1600000, 28]⟩
abbrev S500000 : Shape := ⟨1, ![500000]⟩
abbrev S500000x28 : Shape := ⟨2, ![500000, 28]⟩
abbrev S_ : Shape := ⟨0, ![]⟩
abbrev S500000x1 : Shape := ⟨2, ![500000, 1]⟩
abbrev S1 : Shape := ⟨1, ![1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S1600000x28, .f32⟩
  | .hbm, ⟨1, _⟩ => ⟨S500000, .i32⟩
  | .hbm, ⟨2, _⟩ => ⟨S500000x28, .f32⟩
  | .hbm, ⟨3, _⟩ => ⟨S_, .i32⟩
  | .hbm, ⟨4, _⟩ => ⟨S500000, .i32⟩
  | .hbm, ⟨5, _⟩ => ⟨S500000, .i1⟩
  | .hbm, ⟨6, _⟩ => ⟨S_, .i32⟩
  | .hbm, ⟨7, _⟩ => ⟨S500000, .i32⟩
  | .hbm, ⟨8, _⟩ => ⟨S500000, .i32⟩
  | .hbm, ⟨9, _⟩ => ⟨S500000, .i32⟩
  | .hbm, ⟨10, _⟩ => ⟨S500000x1, .i32⟩
  | .hbm, ⟨11, _⟩ => ⟨S1600000x28, .f32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S1, .i32⟩
  | .hbm, ⟨21, _⟩ => ⟨S_, .i32⟩
  | .hbm, ⟨22, _⟩ => ⟨S500000x1, .i32⟩
  | .hbm, ⟨23, _⟩ => ⟨S500000x1, .i1⟩
  | .hbm, ⟨24, _⟩ => ⟨S1x1, .i32⟩
  | .hbm, ⟨25, _⟩ => ⟨S500000x1, .i32⟩
  | .hbm, ⟨26, _⟩ => ⟨S500000x1, .i1⟩
  | .hbm, ⟨27, _⟩ => ⟨S500000x1, .i1⟩
  | .hbm, ⟨28, _⟩ => ⟨S_, .i1⟩
  | .hbm, ⟨29, _⟩ => ⟨S500000, .i1⟩
  | .hbm, ⟨30, _⟩ => ⟨S500000x28, .f32⟩
  | .hbm, ⟨31, _⟩ => ⟨S500000x28, .i1⟩
  | .hbm, ⟨32, _⟩ => ⟨S_, .f32⟩
  | .hbm, ⟨33, _⟩ => ⟨S500000x28, .f32⟩
  | .hbm, ⟨34, _⟩ => ⟨S500000x28, .f32⟩
  | _, _ => ⟨S1600000x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x28_0 : S500000.BroadcastsInDim S500000x28 (![0] : Fin 1 → Fin S500000x28.rank)
  bcast_S_S500000x28 : S_.BroadcastsInDim S500000x28 (![] : Fin 0 → Fin S500000x28.rank)
  scatter_S1600000x28_S500000x1_S500000x28_1_0_0_1_wf : ScatterDims.WF S1600000x28 S500000x1 S500000x28 [1] [0] [0] 1
  gather_S1600000x28_S500000x1_S500000x28_1_0_n_n_0_1_128_wf : GatherDims.WF S1600000x28 S500000x1 S500000x28 [1] [0] [] [0] [] 1 ![1, 28]

variable [Facts₀]

def scatter_S1600000x28_S500000x1_S500000x28_1_0_0_1 : ScatterDims S1600000x28 S500000x1 S500000x28 where
  updateWindowDims := [1]
  insertedWindowDims := [0]
  scatterDimsToOperandDims := [0]
  indexVectorDim := 1
  wf := scatter_S1600000x28_S500000x1_S500000x28_1_0_0_1_wf
def gather_S1600000x28_S500000x1_S500000x28_1_0_n_n_0_1_128 : GatherDims S1600000x28 S500000x1 S500000x28 where
  offsetDims := [1]
  collapsedSliceDims := [0]
  operandBatchingDims := []
  startIndicesBatchingDims := []
  startIndexMap := [0]
  indexVectorDim := 1
  sliceSizes := ![1, 28]
  wf := gather_S1600000x28_S500000x1_S500000x28_1_0_n_n_0_1_128_wf

class Facts : Prop extends Facts₀ where

variable [Facts]
-- ==== Proof.KernelArray.lean ====
/-
  The kernel's result array as ONE function of the two arrays its windows stage.

  The pallas_call walks a grid of 125 points. At point `t` each of the three windows — the two operands and the
  result — is the block of rows `4000·t … 4000·t + 3999`, all 28 lanes, of its `[500000, 28]` array; the body loads the
  two operand blocks whole, adds them entry by entry and stores the sum whole. So what point `t` writes back is block
  `t` of the entrywise sum of the two operand ARRAYS; the 125 blocks tile the result array (row `r` lies in block
  `r / 4000`), and the array ends holding that sum everywhere.
-/
import proofs.«177521_g14817637171539_cont_week2b_513_59_alg».proof.Proof.Gen.KernelIdeal.Value
import Idealize.ShloMosaic.Lib.Pipeline.Value

noncomputable section

namespace Cert.KernelIdeal.Combined

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

/-- The entrywise sum of two `[500000, 28]` arrays. -/
abbrev rowSum (a b : S500000x28.Idx → Elt F .f32) : S500000x28.Idx → Elt F .f32 := fun i => FloatOps.addf (a i) (b i)

/-- The body's one store is the sum of the two loaded blocks: its two shape casts are of a shape to itself. -/
theorem body_sum (x0 x1 : Vec F S4000x28 .f32) : k0_pay1 x0 x1 = addf x0 x1 := by
  show addf (shapeCast S4000x28 x0 shapeCasts_S4000x28_S4000x28) (shapeCast S4000x28 x1 shapeCasts_S4000x28_S4000x28) = _
  rw [shapeCast_self, shapeCast_self]

/-- The three windows move together (decided over the 125 points): at point `t` each is block `(t, 0)`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the entrywise sum of the two operand arrays as the region finds them. -/
theorem flushed_sum (c : Dev nD) (t : Fin cfg0.N) :
    (dats m 0 c).flushed 2 t = ((cfg0.win 2).blk t).view.read (Elt F) (rowSum (V m c main_v8) (V m c main_v9)) := by
  rw [Value.flushed2]
  unfold out0_2
  rw [View.canon_unit_zero origin]
  simp only [View.ld_unit_zero (S := S4000x28) origin]
  rw [body_sum]
  obtain ⟨e0, e1, e2, e3, e4, e5⟩ := block_index t
  funext j
  show FloatOps.addf (V m c main_v8 (((cfg0.win 0).blk t).view.emb j)) (V m c main_v9 (((cfg0.win 1).blk t).view.emb j))
    = FloatOps.addf (V m c main_v8 (((cfg0.win 2).blk t).view.emb j)) (V m c main_v9 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 28 + 1 * (j 1).val = win0_2.index t (1 : Fin 2) * 28 + 1 * (j 1).val; omega
  have h1 : ((cfg0.win 1).blk t).view.emb j = ((cfg0.win 2).blk t).view.emb j := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 28 + 1 * (j 1).val = win0_2.index t (1 : Fin 2) * 28 + 1 * (j 1).val; omega
  rw [h0, h1]

/-- An index of the result array is in point `t`'s block iff each coordinate is in the block's range on its axis. -/
theorem mem_block (t : Fin cfg0.N) (i : S500000x28.Idx) :
    i ∈ ((cfg0.win 2).blk t).view.set ↔ ∀ a : Fin 2, win0_2.index t a * S4000x28.size a ≤ (i a).val ∧ (i a).val < win0_2.index t a * S4000x28.size a + S4000x28.size a := by
  show i ∈ ((View.whole main_v10).slice (win0_2.rect t)).set ↔ _
  rw [View.set_slice_whole, Rect.mem_set_unit]
  exact Iff.rfl

/-- THE BLOCKS TILE THE ARRAY: row `r` is in the block of point `r / 4000`, which writes back. -/
theorem covered (i : S500000x28.Idx) :
    ∃ t : Fin cfg0.N, (cfg0.win 2).flush t = true ∧ i ∈ ((cfg0.win 2).blk t).view.set := by
  have hi0 : (i 0).val < 500000 := (i 0).isLt
  have hi1 : (i 1).val < 28 := (i 1).isLt
  have ht : (i 0).val / 4000 < cfg0.N := lt_of_lt_of_eq (by omega : (i 0).val / 4000 < 125) N_0.symm
  obtain ⟨-, -, -, -, e4, e5⟩ := block_index ⟨(i 0).val / 4000, ht⟩
  have q0 : win0_2.index ⟨(i 0).val / 4000, ht⟩ (0 : Fin 2) = (i 0).val / 4000 := e4
  refine ⟨⟨(i 0).val / 4000, ht⟩, flush0_2 _, ?_⟩
  rw [mem_block]
  intro a
  match a with
  | ⟨0, _⟩ => show win0_2.index ⟨(i 0).val / 4000, ht⟩ (0 : Fin 2) * 4000 ≤ (i 0).val ∧ (i 0).val < win0_2.index ⟨(i 0).val / 4000, ht⟩ (0 : Fin 2) * 4000 + 4000; omega
  | ⟨1, _⟩ => show win0_2.index ⟨(i 0).val / 4000, ht⟩ (1 : Fin 2) * 28 ≤ (i 1).val ∧ (i 1).val < win0_2.index ⟨(i 0).val / 4000, ht⟩ (1 : Fin 2) * 28 + 28; omega

/-- THE ARRAY after the run: the entrywise sum of the two operand arrays, everywhere. -/
theorem final_sum (c : Dev nD) : (dats m 0 c).arrAt 2 cfg0.N = rowSum (V m c main_v8) (V m c main_v9) :=
  (dats m 0 c).arrAt_eq_of_cover 2 _ (fun t _ => flushed_sum m c t) covered

/-- The frame run re-posted: the result array at the sum of the two staged arrays, the arguments unchanged. -/
theorem run : θ_run defs (onTc (τ := τ) (main (F := F))) ⟨m, fun _ => 0, ρ⟩ fun r => ∀ c : Dev nD,
      r.2.mem ((c : Thread nD τ).loc main_v10) = rowSum (V m c main_v8) (V m c main_v9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_sum m c), (h c).2⟩) (Value.run_blocks m ρ)

end Cert.KernelIdeal.Combined

end
-- ==== Proof.TakeRows.lean ====
/-
  `jnp.take(x, idx, axis=0)` of a table `x : f32[1600000, 28]` at `idx : i32[500000]`, and the scatter's index
  column, as pure functions of the arrays — the operations both programs of this certificate spell, once.

  jax first wraps a negative index round (`idx < 0 ? idx + 1600000 : idx`), makes the wrapped indices a column
  `[500000, 1]`, and then: tests the column against `0 ≤ · ≤ 1599999` (the test reduced along the unit axis and
  repeated along the 28 lanes is the mask), gathers one row of the table per index, and selects the gathered row
  where the mask holds and the quiet-NaN word elsewhere. The accumulating scatter `x.at[idx].add(v)` uses the same
  wrapped column as its scatter indices. Nothing here looks inside the integer arithmetic: the two programs spell it
  identically, so it is carried as one term.
-/
import Idealize.ShloMosaic.PureOps.Ideal
import Idealize.ShloMosaic.PureOps.Contract
import Idealize.ShloMosaic.PureOps.ShapeOps

noncomputable section

namespace TakeRows

open Idealize.ShloMosaic

abbrev Table : Shape := ⟨2, ![1600000, 28]⟩
abbrev Ids : Shape := ⟨1, ![500000]⟩
abbrev Rows : Shape := ⟨2, ![500000, 28]⟩
abbrev IdCol : Shape := ⟨2, ![500000, 1]⟩
abbrev Scalar0 : Shape := ⟨0, ![]⟩
abbrev One : Shape := ⟨1, ![1]⟩
abbrev OneOne : Shape := ⟨2, ![1, 1]⟩

/-! The shape relations the operations cite (each program states its own copies; a proof of a proposition is any
    other's). -/

theorem scalar_ids : Scalar0.BroadcastsInDim Ids (![] : Fin 0 → Fin Ids.rank) := by decide
theorem ids_col : Ids.BroadcastsInDim IdCol (![0] : Fin 1 → Fin IdCol.rank) := by decide
theorem scalar_col : Scalar0.BroadcastsInDim IdCol (![] : Fin 0 → Fin IdCol.rank) := by decide
theorem one_oneone : One.BroadcastsInDim OneOne (![1] : Fin 1 → Fin OneOne.rank) := by decide
theorem oneone_col : OneOne.BroadcastsInDim IdCol (![0, 1] : Fin 2 → Fin IdCol.rank) := by decide
theorem col_ids : IdCol.ReducesTo [1] Ids := by decide
theorem scalar_pos : 0 < Scalar0.numel := by decide
theorem ids_rows : Ids.BroadcastsInDim Rows (![0] : Fin 1 → Fin Rows.rank) := by decide
theorem scalar_rows : Scalar0.BroadcastsInDim Rows (![] : Fin 0 → Fin Rows.rank) := by decide
theorem scalar_table : Scalar0.BroadcastsInDim Table (![] : Fin 0 → Fin Table.rank) := by decide

variable {F : FTy → Type} [FloatOps F]

/-- A negative index wrapped round the table's 1600000 rows; any other index as it is. -/
def wrapped (b : IVec Ids 32) : IVec Ids 32 :=
  select (cmpi .slt b (broadcastInDim Ids ![] scalar_ids (constantI Scalar0 32 0#32)))
    (addi b (broadcastInDim Ids ![] scalar_ids (constantI Scalar0 32 1600000#32))) b

/-- The wrapped indices as a column: the start indices of the gather and the scatter indices of the scatter. -/
def column (b : IVec Ids 32) : IVec IdCol 32 :=
  broadcastInDim IdCol ![0] ids_col (wrapped b)

/-- Whether row `r`'s wrapped index names a row of the table, `0 ≤ · ≤ 1599999`, repeated along the 28 lanes. -/
def inRange (b : IVec Ids 32) : IVec Rows 1 :=
  broadcastInDim Rows ![0] ids_rows
    (Host.reduce IntOp.andi
      (andi (cmpi .sge (column b) (broadcastInDim IdCol ![] scalar_col (constantI Scalar0 32 0#32)))
        (cmpi .sle (column b)
          (broadcastInDim IdCol ![0, 1] oneone_col (broadcastInDim OneOne ![1] one_oneone (constantI One 32 1599999#32)))))
      (constantI Scalar0 1 1#1) col_ids scalar_pos)

/-- What `jnp.take` leaves where the index is out of range: the quiet-NaN word, everywhere. -/
def filler : FVec F Rows .f32 :=
  broadcastInDim Rows ![] scalar_rows (constant Scalar0 .f32 0x7FC00000#32)

/-- The table of zeros `jnp.zeros_like(mem)`. -/
def blank : FVec F Table .f32 :=
  broadcastInDim Table ![] scalar_table (constant Scalar0 .f32 0x00000000#32)

/-- `jnp.take(x, b, axis=0)`: the gathered row where the index is in range, the quiet-NaN word elsewhere. -/
def take (dg : GatherDims Table IdCol Rows) (x : FVec F Table .f32) (b : IVec Ids 32) : FVec F Rows .f32 :=
  select (inRange b) (Host.gather dg x (column b)) filler

end TakeRows

end
-- ==== Proof.KernelRows.lean ====
/-
  What the kernel's two operand arrays hold when the pallas_call is entered.

  Before the region @main runs fifty-seven host operations: the index wrap and its column, the table of zeros and the
  accumulating scatter of `val` into it, then `jnp.take`'s body twice — once on `mem`, once on the scattered table of
  zeros. So the first operand is the rows of `mem` taken at `idx`, and the second the rows, taken at `idx`, of the
  zeros the updates were accumulated into.
-/
import proofs.«177521_g14817637171539_cont_week2b_513_59_alg».proof.Proof.Gen.KernelIdeal.Frame
import proofs.«177521_g14817637171539_cont_week2b_513_59_alg».proof.Proof.TakeRows
import Idealize.ShloMosaic.Lib.StableHlo.Run

noncomputable section

namespace Cert.KernelIdeal.Combined

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The first operand of the pallas_call: `jnp.take(mem, idx, axis=0)`. The fold over the host operations is unrolled
    and each operation's result read at its own buffer; the outlined function's typed references transport contents
    along an equation of a type with itself, the identity. -/
theorem base_rows (c : Dev nD) :
    (V m c main_v8 : S500000x28.Idx → Elt F .f32)
      = TakeRows.take gather_S1600000x28_S500000x1_S500000x28_1_0_n_n_0_1_128
          (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  simp only [TRef.toBuf, TRef.ofBuf, cast_eq]
  rfl

/-- The second operand: `jnp.take(zeros.at[idx].add(val), idx, axis=0)`. -/
theorem update_rows (c : Dev nD) :
    (V m c main_v9 : S500000x28.Idx → Elt F .f32)
      = TakeRows.take gather_S1600000x28_S500000x1_S500000x28_1_0_n_n_0_1_128
          (Host.scatterAdd scatter_S1600000x28_S500000x1_S500000x28_1_0_0_1 TakeRows.blank
            (TakeRows.column (m ((c : Thread nD τ).loc main_arg1))) (m ((c : Thread nD τ).loc main_arg2)))
          (m ((c : Thread nD τ).loc main_arg1)) := by
  dsimp only [V]
  simp only [hostOps0, hostOps0_1, hostOps0_2, List.flatten_cons, List.flatten_nil, List.append_nil, List.cons_append,
    List.nil_append]
  after_results_simp
  simp only [TRef.toBuf, TRef.ofBuf, cast_eq]
  rfl

end Cert.KernelIdeal.Combined

end
-- ==== Proof.ReferenceRun.lean ====
/-
  The reference program's run, read back: `mem.at[idx].add(val)` then `jnp.take(·, idx, axis=0)`.

  @main is a straight line of host operations: the index wrap and its column, the accumulating scatter into `mem`,
  and then the body of `jnp.take` inlined at its call (with `jnp.where`'s select inlined in turn) — thirty-two
  operations, each writing a buffer of its own. So every weakly fair execution terminates, and the result buffer ends
  at the operations' composed term of the three arguments: the rows of the scattered table taken at `idx`
  (`TakeRows.take`), the arguments themselves untouched.
-/
import proofs.«177521_g14817637171539_cont_week2b_513_59_alg».proof.Proof.Gen.ReferenceIdeal
import proofs.«177521_g14817637171539_cont_week2b_513_59_alg».proof.Proof.TakeRows
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order: its own nine, then the twenty-three of `jnp.take`'s body at the call's buffers, the
    scattered table `main_v6` its operand and `main_v7` its result. -/
abbrev ops : List (HloOp τ sig (Elt F)) :=
  [ StableHlo.nullary main_c (constantI S_ 32 0#32),
    StableHlo.unary main_c main_v0 (broadcastInDim S500000 ![] bcast_S_S500000 : (⟨S_, .i32⟩ : BufTy).Contents (Elt F) → (⟨S500000, .i32⟩ : BufTy).Contents (Elt F)),
    StableHlo.binary main_arg1 main_v0 main_v1 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 1600000#32),
    StableHlo.unary main_c_0 main_v2 (broadcastInDim S500000 ![] bcast_S_S500000 : (⟨S_, .i32⟩ : BufTy).Contents (Elt F) → (⟨S500000, .i32⟩ : BufTy).Contents (Elt F)),
    StableHlo.binary main_arg1 main_v2 main_v3 (addi : (⟨S500000, .i32⟩ : BufTy).Contents (Elt F) → (⟨S500000, .i32⟩ : BufTy).Contents (Elt F) → (⟨S500000, .i32⟩ : BufTy).Contents (Elt F)),
    StableHlo.ternary main_v1 main_v3 main_arg1 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v4 main_v5 (broadcastInDim S500000x1 ![0] bcast_S500000_S500000x1_0 : (⟨S500000, .i32⟩ : BufTy).Contents (Elt F) → (⟨S500000x1, .i32⟩ : BufTy).Contents (Elt F)),
    StableHlo.ternary main_arg0 main_v5 main_arg2 main_v6 ((fun x i u => Host.scatterAdd scatter_S1600000x28_S500000x1_S500000x28_1_0_0_1 x i u) : (⟨S1600000x28, .f32⟩ : BufTy).Contents (Elt F) → (⟨S500000x1, .i32⟩ : BufTy).Contents (Elt F) → (⟨S500000x28, .f32⟩ : BufTy).Contents (Elt F) → (⟨S1600000x28, .f32⟩ : BufTy).Contents (Elt F)),
    StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S500000, .i32⟩) (broadcastInDim S500000 ![] bcast_S_S500000),
    StableHlo.TRef.binary (.of main_arg1 : StableHlo.TRef sig ⟨S500000, .i32⟩) (.of main_call0_v0 : StableHlo.TRef sig ⟨S500000, .i32⟩) (.of main_call0_v1 : StableHlo.TRef sig ⟨S500000, .i1⟩) (cmpi .slt),
    StableHlo.TRef.nullary (.of main_call0_c_0 : StableHlo.TRef sig ⟨S_, .i32⟩) (constantI S_ 32 1600000#32),
    StableHlo.TRef.unary (.of main_call0_c_0 : StableHlo.TRef sig ⟨S_, .i32⟩) (.of main_call0_v2 : StableHlo.TRef sig ⟨S500000, .i32⟩) (broadcastInDim S500000 ![] bcast_S_S500000),
    StableHlo.TRef.binary (.of main_arg1 : StableHlo.TRef sig ⟨S500000, .i32⟩) (.of main_call0_v2 : StableHlo.TRef sig ⟨S500000, .i32⟩) (.of main_call0_v3 : StableHlo.TRef sig ⟨S500000, .i32⟩) addi,
    StableHlo.TRef.ternary (.of main_call0_v1 : StableHlo.TRef sig ⟨S500000, .i1⟩) (.of main_call0_v3 : StableHlo.TRef sig ⟨S500000, .i32⟩) (.of main_arg1 : StableHlo.TRef sig ⟨S500000, .i32⟩) (.of main_call0_v4 : StableHlo.TRef sig ⟨S500000, .i32⟩) select,
    StableHlo.TRef.unary main_call0_call0.v0 (.of main_call0_v5 : StableHlo.TRef sig ⟨S500000x1, .i32⟩) (broadcastInDim S500000x1 ![0] bcast_S500000_S500000x1_0),
    StableHlo.TRef.nullary (.of main_call0_c_1 : StableHlo.TRef sig ⟨S1, .i32⟩) (constantI S1 32 1599999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S500000x1, .i32⟩) (broadcastInDim S500000x1 ![] bcast_S_S500000x1),
    StableHlo.TRef.binary (.of main_call0_v5 : StableHlo.TRef sig ⟨S500000x1, .i32⟩) (.of main_call0_v6 : StableHlo.TRef sig ⟨S500000x1, .i32⟩) (.of main_call0_v7 : StableHlo.TRef sig ⟨S500000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S500000x1, .i32⟩) (broadcastInDim S500000x1 ![0, 1] bcast_S1x1_S500000x1_0_1),
    StableHlo.TRef.binary (.of main_call0_v5 : StableHlo.TRef sig ⟨S500000x1, .i32⟩) (.of main_call0_v9 : StableHlo.TRef sig ⟨S500000x1, .i32⟩) (.of main_call0_v10 : StableHlo.TRef sig ⟨S500000x1, .i1⟩) (cmpi .sle),
    StableHlo.TRef.binary (.of main_call0_v7 : StableHlo.TRef sig ⟨S500000x1, .i1⟩) (.of main_call0_v10 : StableHlo.TRef sig ⟨S500000x1, .i1⟩) (.of main_call0_v11 : StableHlo.TRef sig ⟨S500000x1, .i1⟩) andi,
    StableHlo.TRef.nullary (.of main_call0_c_3 : StableHlo.TRef sig ⟨S_, .i1⟩) (constantI S_ 1 1#1),
    StableHlo.TRef.binary (.of main_call0_v11 : StableHlo.TRef sig ⟨S500000x1, .i1⟩) (.of main_call0_c_3 : StableHlo.TRef sig ⟨S_, .i1⟩) (.of main_call0_v12 : StableHlo.TRef sig ⟨S500000, .i1⟩) (fun x v => Host.reduce IntOp.andi x v reducesTo_S500000x1_S500000_d1 h_S_),
    StableHlo.TRef.binary (.of main_v6 : StableHlo.TRef sig ⟨S1600000x28, .f32⟩) (.of main_call0_v5 : StableHlo.TRef sig ⟨S500000x1, .i32⟩) (.of main_call0_v13 : StableHlo.TRef sig ⟨S500000x28, .f32⟩) (fun x i => Host.gather gather_S1600000x28_S500000x1_S500000x28_1_0_n_n_0_1_128 x i),
    StableHlo.TRef.unary (.of main_call0_v12 : StableHlo.TRef sig ⟨S500000, .i1⟩) (.of main_call0_v14 : StableHlo.TRef sig ⟨S500000x28, .i1⟩) (broadcastInDim S500000x28 ![0] bcast_S500000_S500000x28_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S500000x28, .f32⟩) (broadcastInDim S500000x28 ![] bcast_S_S500000x28),
    StableHlo.TRef.ternary (.of main_call0_v14 : StableHlo.TRef sig ⟨S500000x28, .i1⟩) (.of main_call0_v13 : StableHlo.TRef sig ⟨S500000x28, .f32⟩) (.of main_call0_v15 : StableHlo.TRef sig ⟨S500000x28, .f32⟩) (.of main_v7 : StableHlo.TRef sig ⟨S500000x28, .f32⟩) select ]

set_option maxRecDepth 1024 in
/-- @main is that straight line: the two outlined functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

/-- The result buffer after the line: the rows of the scattered table taken at the indices. The fold over the
    operations is unrolled and each operation's result read at its own buffer (the outlined function's typed references
    transport contents along an equation of a type with itself: the identity); what is left is the operations' composed
    term, which is `TakeRows.take` of the scatter by unfolding the names. -/
theorem out_eq (V : Valuation τ sig (Elt F)) :
    after ops V (main_v7 : DevRef τ sig)
      = TakeRows.take gather_S1600000x28_S500000x1_S500000x28_1_0_n_n_0_1_128
          (Host.scatterAdd scatter_S1600000x28_S500000x1_S500000x28_1_0_0_1 (V (main_arg0 : DevRef τ sig))
            (TakeRows.column (V (main_arg1 : DevRef τ sig))) (V (main_arg2 : DevRef τ sig)))
          (V (main_arg1 : DevRef τ sig)) := by
  after_results_simp
  simp only [TRef.toBuf, TRef.ofBuf, cast_eq]
  rfl

/-- No operation writes an argument. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, for any float values, from any memory with zero counters: every weakly fair execution of @main
    terminates with the result at `take (scatter-add mem (column idx) val) idx` of the arguments as launched, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = TakeRows.take gather_S1600000x28_S500000x1_S500000x28_1_0_n_n_0_1_128
            (Host.scatterAdd scatter_S1600000x28_S500000x1_S500000x28_1_0_0_1 (m ((c.tc : Thread nD τ).loc main_arg0))
              (TakeRows.column (m ((c.tc : Thread nD τ).loc main_arg1))) (m ((c.tc : Thread nD τ).loc main_arg2)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.LibGatherBack.lean ====
/-
  A general law about rows that are scattered into a table and read back, over the extended reals.

  `jnp.take(x, idx, axis=0)` in its default mode reads, for each position of the result, one row of the table
  where the index is in range and a fill value elsewhere: a `select` on a mask between a gather of the table and a
  constant block. `x.at[idx].add(v)` is the accumulating scatter: each table entry plus the sum of the update
  entries landing on it. Reading a table back after the scatter can therefore be split: the entry the untouched
  table holds there, plus the entry a table of zeros holds there after the same scatter,

      take (mem) + take (scatter-add into zeros) = take (scatter-add into mem),

  position by position. Where the mask holds this is `a + (0 + S) = a + S`, the zero being the neutral element of the
  extended reals' addition; where it does not, both sides are the fill value, and the law holds exactly when the fill
  value `f` satisfies `f + f = f`: the quiet-NaN word jax fills with denotes `⊥` on the extended reals, and
  `⊥ + ⊥ = ⊥`. Nothing is asked of the table, the updates, the indices or the mask: no finiteness, no index range.
-/
import Idealize.ShloMosaic.PureOps.Ideal
import Idealize.ShloMosaic.PureOps.Ideal.Laws
import Idealize.ShloMosaic.Lib.ValueIdx

noncomputable section

namespace GatherBack

open Idealize.ShloMosaic

/-- The quiet-NaN word `0x7FC00000` — what `jnp.take` writes where an index is out of range — denotes the bottom of
    the extended reals. -/
theorem quiet_nan_f32 : Ideal.ofBits .f32 0x7FC00000#32 = (⊥ : EReal) := by
  simp [Ideal.ofBits, Ideal.ieee]

variable {s si sg t : Shape} {w w' : Nat}

/-- Rows of the table `x` read at the start indices `gi` where `mask` holds, `fill` elsewhere. -/
def readBack (dg : GatherDims s sg t) (mask : IVec t 1) (gi : IVec sg w') (fill : FVec Ideal t .f32)
    (x : FVec Ideal s .f32) : FVec Ideal t .f32 :=
  select mask (Host.gather dg x gi) fill

/-- `readBack` at a position: the table's entry the gather names there, or the fill. -/
theorem readBack_apply (dg : GatherDims s sg t) (mask : IVec t 1) (gi : IVec sg w') (fill : FVec Ideal t .f32)
    (x : FVec Ideal s .f32) (j : t.Idx) :
    readBack dg mask gi fill x j = if mask j = 1 then x (dg.operandIdx j gi) else fill j := rfl

/-- THE LAW: reading the untouched table and reading the updates accumulated into a table of zeros, added position by
    position, is reading the table the updates were accumulated into — for any table, updates, indices and mask, given
    only that the blank table is zero everywhere and the fill value is `⊥` everywhere. -/
theorem readBack_add_readBack_scatter (ds : ScatterDims s si t) (dg : GatherDims s sg t) (mask : IVec t 1)
    (gi : IVec sg w') (idx : IVec si w) (fill : FVec Ideal t .f32) (mem blank : FVec Ideal s .f32)
    (val : FVec Ideal t .f32) (hblank : ∀ p, blank p = 0) (hfill : ∀ j, fill j = ⊥) :
    addf (readBack dg mask gi fill mem) (readBack dg mask gi fill (Host.scatterAdd ds blank idx val))
      = readBack dg mask gi fill (Host.scatterAdd ds mem idx val) := by
  funext j
  rw [ValueIdx.addf_apply, readBack_apply, readBack_apply, readBack_apply]
  by_cases h : mask j = 1
  · rw [if_pos h, if_pos h, if_pos h]
    show mem (dg.operandIdx j gi) + Ideal.hostScatterAdd ds blank idx val (dg.operandIdx j gi)
      = Ideal.hostScatterAdd ds mem idx val (dg.operandIdx j gi)
    unfold Ideal.hostScatterAdd
    rw [hblank, zero_add]
  · rw [if_neg h, if_neg h, if_neg h, hfill]
    exact EReal.bot_add ⊥

end GatherBack

end
-- ==== Proof.Bridge.lean ====
/-
  The two programs compute one function of the arguments, over the extended reals.

  With `r` the row `idx[i]` names (wrapped, when negative), the reference's entry `(i, q)` is
  `mem[r, q] + Σ { val[e, q] : idx[e] names r }` where `r` is a row of the table and the quiet-NaN word elsewhere; the
  kernel's is `mem[r, q] + (0 + Σ { val[e, q] : idx[e] names r })` where `r` is a row of the table and the sum of two
  quiet-NaN words elsewhere. These agree by `0 + x = x` and `⊥ + ⊥ = ⊥` (`GatherBack.readBack_add_readBack_scatter`):
  no finiteness of `mem` or `val` and no range of `idx` is used.
-/
import proofs.«177521_g14817637171539_cont_week2b_513_59_alg».proof.Proof.KernelArray
import proofs.«177521_g14817637171539_cont_week2b_513_59_alg».proof.Proof.KernelRows
import proofs.«177521_g14817637171539_cont_week2b_513_59_alg».proof.Proof.ReferenceRun
import proofs.«177521_g14817637171539_cont_week2b_513_59_alg».proof.Proof.LibGatherBack

noncomputable section

namespace Cert.Bridge

open Idealize.ShloMosaic

/-- `jnp.zeros_like(mem)` is zero at every entry. -/
theorem blank_apply (p : TakeRows.Table.Idx) : TakeRows.blank (F := Ideal) p = 0 := by
  show Ideal.ofBits .f32 0x00000000#32 = 0
  exact Ideal.ofBits_zero_f32

/-- `jnp.take`'s fill is `⊥` at every entry. -/
theorem filler_apply (j : TakeRows.Rows.Idx) : TakeRows.filler (F := Ideal) j = ⊥ := by
  show Ideal.ofBits .f32 0x7FC00000#32 = ⊥
  exact GatherBack.quiet_nan_f32

/-- The reference's result term is the kernel's: rows of `mem.at[idx].add(val)` taken at `idx` are the rows of
    `mem` taken there plus the rows of `zeros.at[idx].add(val)` taken there. -/
theorem result_eq (a : FVec Ideal TakeRows.Table .f32) (b : IVec TakeRows.Ids 32) (v : FVec Ideal TakeRows.Rows .f32) :
    TakeRows.take Cert.ReferenceIdeal.gather_S1600000x28_S500000x1_S500000x28_1_0_n_n_0_1_128
        (Host.scatterAdd Cert.ReferenceIdeal.scatter_S1600000x28_S500000x1_S500000x28_1_0_0_1 a (TakeRows.column b) v) b
      = Cert.KernelIdeal.Combined.rowSum
          (TakeRows.take Cert.KernelIdeal.gather_S1600000x28_S500000x1_S500000x28_1_0_n_n_0_1_128 a b)
          (TakeRows.take Cert.KernelIdeal.gather_S1600000x28_S500000x1_S500000x28_1_0_n_n_0_1_128
            (Host.scatterAdd Cert.KernelIdeal.scatter_S1600000x28_S500000x1_S500000x28_1_0_0_1 TakeRows.blank
              (TakeRows.column b) v) b) :=
  (GatherBack.readBack_add_readBack_scatter
    Cert.KernelIdeal.scatter_S1600000x28_S500000x1_S500000x28_1_0_0_1
    Cert.KernelIdeal.gather_S1600000x28_S500000x1_S500000x28_1_0_n_n_0_1_128
    (TakeRows.inRange b) (TakeRows.column b) (TakeRows.column b) TakeRows.filler a TakeRows.blank v
    blank_apply filler_apply).symm

end Cert.Bridge

end
-- ==== Proof.lean ====
/-
  The certificate of a scatter-add read back at the scattered positions.

  The reference accumulates `val` into `mem` at the rows `idx` names (`mem.at[idx].add(val)`) and takes the rows of the
  result at `idx`. The kernel never writes `mem`: it accumulates `val` into a table of zeros, takes the rows of `mem` and
  of that table at `idx` on the host, and adds the two `[500000, 28]` arrays in a pallas_call, 4000 rows per grid point.
  Over the extended reals both are `mem[r] + Σ val` at a row `r` of the table and `⊥` (the quiet-NaN fill of `jnp.take`)
  at an index out of range: `0 + x = x` and `⊥ + ⊥ = ⊥`, with no use of the inputs' finiteness.

  The pieces: the reference's run read back as one term of the arguments (Proof/ReferenceRun.lean); the kernel's result
  array as the entrywise sum of its two operand arrays, over the generated frame and the generated blockwise value
  (Proof/KernelArray.lean), and what those two arrays hold (Proof/KernelRows.lean); the law joining the two sides
  (Proof/LibGatherBack.lean, Proof/Bridge.lean). The idealization rewrote no operation, so `preserves` has nothing to
  state.
-/
import proofs.«177521_g14817637171539_cont_week2b_513_59_alg».proof.Defs
import proofs.«177521_g14817637171539_cont_week2b_513_59_alg».proof.Proof.Gen.Kernel
import proofs.«177521_g14817637171539_cont_week2b_513_59_alg».proof.Proof.Gen.Kernel.Skeleton
import proofs.«177521_g14817637171539_cont_week2b_513_59_alg».proof.Proof.Gen.Kernel.Launch
import proofs.«177521_g14817637171539_cont_week2b_513_59_alg».proof.Proof.Gen.Kernel.Points
import proofs.«177521_g14817637171539_cont_week2b_513_59_alg».proof.Proof.Gen.Kernel.Frame
import proofs.«177521_g14817637171539_cont_week2b_513_59_alg».proof.Proof.Gen.KernelIdeal
import proofs.«177521_g14817637171539_cont_week2b_513_59_alg».proof.Proof.Gen.KernelIdeal.Skeleton
import proofs.«177521_g14817637171539_cont_week2b_513_59_alg».proof.Proof.Gen.KernelIdeal.Launch
import proofs.«177521_g14817637171539_cont_week2b_513_59_alg».proof.Proof.Gen.KernelIdeal.Points
import proofs.«177521_g14817637171539_cont_week2b_513_59_alg».proof.Proof.Gen.KernelIdeal.Frame
import proofs.«177521_g14817637171539_cont_week2b_513_59_alg».proof.Proof.Gen.KernelIdeal.Value
import proofs.«177521_g14817637171539_cont_week2b_513_59_alg».proof.Proof.Gen.ReferenceIdeal
import proofs.«177521_g14817637171539_cont_week2b_513_59_alg».proof.Proof.Gen.Pre_finite_inputs
import proofs.«177521_g14817637171539_cont_week2b_513_59_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments the kernel's result array ends at the sum of the two taken arrays and the
    reference's at the rows of the scattered table: one function of the arguments (`Bridge.result_eq`). -/
theorem algebraic : Cert.algebraic_KernelIdeal_ReferenceIdeal := by
  intro m ρ m' ρ' _ hagree
  refine ⟨_, Cert.KernelIdeal.Combined.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, Cert.KernelIdeal.Combined.base_rows,
    Cert.KernelIdeal.Combined.update_rows]
  exact Cert.Bridge.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
